-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100x4x32x32 : Shape := ⟨5, ![64, 100, 4, 32, 32]⟩
abbrev S_ : Shape := ⟨0, ![]⟩

class Facts : Prop where
  bcast_S_S64x100x4x32x32 : S_.BroadcastsInDim S64x100x4x32x32 (![] : Fin 0 → Fin S64x100x4x32x32.rank)
  reducesTo_S64x100x4x32x32_S_d0_1_2_3_4 : S64x100x4x32x32.ReducesTo [0, 1, 2, 3, 4] S_
  h_S_ : 0 < S_.numel

variable [Facts]

def fn {F : FTy → Type} [FloatOps F] (main_arg0 : FVec F S64x100x4x32x32 .f32) (main_arg1 : FVec F S64x100x4x32x32 .f32) : IVec S_ 1 :=
  let main_v0 : FVec F S64x100x4x32x32 .f32 := Host.absf main_arg0
  let main_cst : FVec F S_ .f32 := constant S_ .f32 0x7F800000#32
  let main_v1 : FVec F S64x100x4x32x32 .f32 := broadcastInDim S64x100x4x32x32 ![] bcast_S_S64x100x4x32x32 main_cst
  let main_v2 : IVec S64x100x4x32x32 1 := cmpf .olt main_v0 main_v1
  let main_c : IVec S_ 1 := constantI S_ 1 1#1
  let main_v3 : IVec S_ 1 := (fun x v => Host.reduce IntOp.andi x v reducesTo_S64x100x4x32x32_S_d0_1_2_3_4 h_S_) main_v2 main_c
  let main_v4 : FVec F S64x100x4x32x32 .f32 := Host.absf main_arg1
  let main_cst_0 : FVec F S_ .f32 := constant S_ .f32 0x7F800000#32
  let main_v5 : FVec F S64x100x4x32x32 .f32 := broadcastInDim S64x100x4x32x32 ![] bcast_S_S64x100x4x32x32 main_cst_0
  let main_v6 : IVec S64x100x4x32x32 1 := cmpf .olt main_v4 main_v5
  let main_c_1 : IVec S_ 1 := constantI S_ 1 1#1
  let main_v7 : IVec S_ 1 := (fun x v => Host.reduce IntOp.andi x v reducesTo_S64x100x4x32x32_S_d0_1_2_3_4 h_S_) main_v6 main_c_1
  let main_v8 : IVec S_ 1 := andi main_v3 main_v7
  main_v8
-- ==== Kernel.lean ====
abbrev S64x100x4x32x32 : Shape := ⟨5, ![64, 100, 4, 32, 32]⟩
abbrev S64x100x1x32x32 : Shape := ⟨5, ![64, 100, 1, 32, 32]⟩
abbrev S64x100x32x32 : Shape := ⟨4, ![64, 100, 32, 32]⟩
abbrev S6400x32x32 : Shape := ⟨3, ![6400, 32, 32]⟩
abbrev S1x1 : Shape := ⟨2, ![1, 1]⟩
abbrev S800x32x32 : Shape := ⟨3, ![800, 32, 32]⟩
abbrev S800x32 : Shape := ⟨2, ![800, 32]⟩
abbrev S800 : Shape := ⟨1, ![800]⟩
abbrev S800x1 : Shape := ⟨2, ![800, 1]⟩
abbrev S1 : Shape := ⟨1, ![1]⟩
abbrev S_ : Shape := ⟨0, ![]⟩

abbrev nBuf : Space → Nat
  | .hbm => 12
  | .vmem => 5
  | .smem => 0
  | _ => 0

abbrev bufTy : (tb : Table) → Fin (tcTables nBuf tb) → BufTy
  | .hbm, ⟨0, _⟩ => ⟨S64x100x4x32x32, .f32⟩
  | .hbm, ⟨1, _⟩ => ⟨S64x100x4x32x32, .f32⟩
  | .hbm, ⟨2, _⟩ => ⟨S64x100x1x32x32, .f32⟩
  | .hbm, ⟨3, _⟩ => ⟨S64x100x32x32, .f32⟩
  | .hbm, ⟨4, _⟩ => ⟨S6400x32x32, .f32⟩
  | .hbm, ⟨5, _⟩ => ⟨S64x100x1x32x32, .f32⟩
  | .hbm, ⟨6, _⟩ => ⟨S64x100x32x32, .f32⟩
  | .hbm, ⟨7, _⟩ => ⟨S6400x32x32, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S800x32x32, .f32⟩
  | .local _ .vmem, ⟨1, _⟩ => ⟨S800x32x32, .f32⟩
  | .local _ .vmem, ⟨2, _⟩ => ⟨S800x32x32, .f32⟩
  | .local _ .vmem, ⟨3, _⟩ => ⟨S800x32x32, .f32⟩
  | .local _ .vmem, ⟨4, _⟩ => ⟨S1x1, .f32⟩
  | _, _ => ⟨S64x100x4x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S800x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S64x100x4x32x32_S64x100x1x32x32_0_0_3_0_0 : S64x100x4x32x32.Slices ![0, 0, 3, 0, 0] S64x100x1x32x32
  shapeCasts_S64x100x1x32x32_S64x100x32x32 : S64x100x1x32x32.ShapeCasts S64x100x32x32
  shapeCasts_S64x100x32x32_S6400x32x32 : S64x100x32x32.ShapeCasts S6400x32x32
  inb_S1x1_S1x1_0_0 : ∀ a, (![0, 0] : Fin 2 → Nat) a + S1x1.size a ≤ S1x1.size a
  h_S1x1 : 0 < S1x1.numel
  inb_S800x32x32_S800x32x32_0_0_0 : ∀ a, (![0, 0, 0] : Fin 3 → Nat) a + S800x32x32.size a ≤ S800x32x32.size a
  h_S800x32x32 : 0 < S800x32x32.numel
  shapeCasts_S800x32x32_S800x32x32 : S800x32x32.ShapeCasts S800x32x32
  reduces_S800x32x32_S800x32 : S800x32x32.Reduces [2] S800x32
  reduces_S800x32_S800 : S800x32.Reduces [1] S800
  shapeCasts_S800_S800x1 : S800.ShapeCasts S800x1
  reduces_S800x1_S1 : S800x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x32x32.size a ≤ S6400x32x32.size a
  hwx0_0 : ∀ i : grid0.Coords, EltTy.bits .f32 = 32 ∨ (Rect.block (s := S6400x32x32) S800x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x32x32.size a ≤ S6400x32x32.size a
  hwx0_1 : ∀ i : grid0.Coords, EltTy.bits .f32 = 32 ∨ (Rect.block (s := S6400x32x32) S800x32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v2) S800x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S800x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x100x4x32x32 : Shape := ⟨5, ![64, 100, 4, 32, 32]⟩
abbrev S64x100x1x32x32 : Shape := ⟨5, ![64, 100, 1, 32, 32]⟩
abbrev S64x100x32x32 : Shape := ⟨4, ![64, 100, 32, 32]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S64x100x4x32x32, .f32⟩
  | .hbm, ⟨1, _⟩ => ⟨S64x100x4x32x32, .f32⟩
  | .hbm, ⟨2, _⟩ => ⟨S64x100x1x32x32, .f32⟩
  | .hbm, ⟨3, _⟩ => ⟨S64x100x32x32, .f32⟩
  | .hbm, ⟨4, _⟩ => ⟨S64x100x1x32x32, .f32⟩
  | .hbm, ⟨5, _⟩ => ⟨S64x100x32x32, .f32⟩
  | .hbm, ⟨6, _⟩ => ⟨S64x100x32x32, .f32⟩
  | .hbm, ⟨7, _⟩ => ⟨S64x100x32x32, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S64x100x4x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  slices_S64x100x4x32x32_S64x100x1x32x32_0_0_3_0_0 : S64x100x4x32x32.Slices ![0, 0, 3, 0, 0] S64x100x1x32x32
  shapeCasts_S64x100x1x32x32_S64x100x32x32 : S64x100x1x32x32.ShapeCasts S64x100x32x32
  reducesTo_S64x100x32x32_S_d0_1_2_3 : S64x100x32x32.ReducesTo [0, 1, 2, 3] S_
  h_S_ : 0 < S_.numel

variable [Facts₀]

class Facts : Prop extends Facts₀ where

variable [Facts]
-- ==== Proof.KernelPieces.lean ====
/-
  What the kernel body leaves in the accumulator's staging buffer, per case.

  At the first grid point the body stores a zero, reads it back and stores (read-back) + (the block's sum): the buffer
  ends at the second payload of the two input blocks and the zero payload. At every later point it stores
  (the buffer's contents) + (the block's sum): the second payload of the two input blocks and the contents found.
-/
import proofs.«168996_j33758442946606_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.AccValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point: the buffer holding `xo` ends at the accumulating payload of the two blocks and `xo`. -/
theorem out_B (c : Dev nD) (i : grid0.Coords) (a1 : Memref sig .tc .vmem S800x32x32 .f32) (h1 : a1.IsWhole)
    (a2 : Memref sig .tc .vmem S800x32x32 .f32) (h2 : a2.IsWhole) (a3 : Memref sig .tc .vmem S1x1 .f32) (h3 : a3.IsWhole)
    (hc : ¬cond0_0 i) (x0 x1 : Vec F S800x32x32 .f32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  rw [View.canon_unit_zero hz2]
  simp only [View.readAt_eq_ld, h1.read_unread, h2.read_unread, h3.read_unread, View.ld_unit_zero (S := S800x32x32) hz3,
    View.ld_unit_zero (S := S1x1) hz2]

/-- The first point: the buffer ends at the accumulating payload of the two blocks and the zero it has just stored. -/
theorem out_A (c : Dev nD) (i : grid0.Coords) (a1 : Memref sig .tc .vmem S800x32x32 .f32) (h1 : a1.IsWhole)
    (a2 : Memref sig .tc .vmem S800x32x32 .f32) (h2 : a2.IsWhole) (a3 : Memref sig .tc .vmem S1x1 .f32) (h3 : a3.IsWhole)
    (hc : cond0_0 i) (x0 x1 : Vec F S800x32x32 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S800x32x32) hz3]

variable (m : (ℓ : Loc nD τ sig) → Buf (Elt F) ℓ)

/-- After the first point the accumulator holds the payload of that point's blocks and the zero. -/
theorem outsAt_first (c : Dev nD) (t : Fin cfg0.N) (h0 : t.val % 8 = 0) :
    outsAt0 m c t.val t.isLt = k0_pay2 (iblk m c 0 t) (iblk m c 1 t) (k0_pay1 (F := F)) :=
  (outsAt0_A m c t h0).trans
    (out_A c (grid0.coords t) (ms0_0 t) (hs0_0 t) (ms0_1 t) (hs0_1 t) (ms0_2 t) (hs0_2 t) ((hcond0_0 t).mpr h0)
      (iblk m c 0 t) (iblk m c 1 t))

/-- After a later point it holds the payload of that point's blocks and what the point before left. -/
theorem outsAt_later (c : Dev nD) (t : Fin cfg0.N) (h0 : ¬t.val % 8 = 0) :
    outsAt0 m c t.val t.isLt
      = k0_pay2 (iblk m c 0 t) (iblk m c 1 t)
          (outsAt0 m c (t.val - 1) (Nat.lt_of_le_of_lt (Nat.sub_le _ _) t.isLt)) :=
  (outsAt0_B m c t h0).trans
    (out_B c (grid0.coords t) (ms0_0 t) (hs0_0 t) (ms0_1 t) (hs0_1 t) (ms0_2 t) (hs0_2 t)
      (fun h => h0 ((hcond0_0 t).mp h)) (iblk m c 0 t) (iblk m c 1 t)
      (outsAt0 m c (t.val - 1) (Nat.lt_of_le_of_lt (Nat.sub_le _ _) t.isLt)))

end Cert.KernelIdeal.AccValue

end
-- ==== Proof.LibColReduce.lean ====
/-
  A sum down the rows of a matrix, read at one column.

  A kernel's reduction of an n × m vector over its first axis is, at column q and at the exact values, the sum over
  the n rows of the entry in that column; the host's reduction over the first axis is the same sum added to the
  initial value. A vector of length m laid as a 1 × m row and a sum over n·b rows taken block by block are read
  here too: a sum over Fin (a·b) is the sum over the a blocks of the sums over the b rows of each block.
-/
import Idealize.ShloMosaic.PureOps.Ideal.Laws
import Idealize.ShloMosaic.Lib.Pipeline.Value
import Idealize.ShloMosaic.Lib.ValueIdx

noncomputable section

namespace Idealize.ShloMosaic.ValueIdx

open Idealize.ShloMosaic

variable {φ : FTy}

/-- Inserting row k into the reduced index q of an n × m matrix reduced over its rows gives the entry (k, q). -/
theorem lift_col {n m : ℕ} (h : Shape.Reduces ⟨2, ![n, m]⟩ [(0 : Fin 2)] ⟨1, ![m]⟩) (q : Fin m) (k : Fin n) :
    h.lift (ix1 q) k = ix2 k q :=
  funext fun c => Fin.ext (by
    match c with
    | ⟨0, _⟩ => rfl
    | ⟨1, _⟩ => rfl)

/-- A kernel's sum over the rows, at column q, is the sum over the rows of the column's entries. -/
theorem multiReduction_add_col {n m : ℕ} (src : FVec Ideal ⟨2, ![n, m]⟩ φ) (acc : BitVec φ.bits)
    (h : Shape.Reduces ⟨2, ![n, m]⟩ [(0 : Fin 2)] ⟨1, ![m]⟩) (hφ : FKind.Formats φ) (hacc : acc = FKind.add.neutral φ hφ)
    (q : Fin m) :
    multiReduction .add [(0 : Fin 2)] ⟨1, ![m]⟩ src acc h hφ hacc (ix1 q) = ∑ k : Fin n, src (ix2 k q) :=
  (Ideal.multiReduction_add_single src acc h hφ hacc (ix1 q)).trans
    (Finset.sum_congr rfl fun k _ => congrArg src (lift_col h q k))

/-- The host's sum over the rows, at column q, is the initial value plus the sum over the rows of the column's entries. -/
theorem hostReduceAdd_col {n m : ℕ} (x : FVec Ideal ⟨2, ![n, m]⟩ φ) (init : (⟨0, ![]⟩ : Shape).Idx → Ideal φ)
    (h' : Shape.ReducesTo ⟨2, ![n, m]⟩ [(0 : Fin 2)] ⟨1, ![m]⟩) (h : Shape.Reduces ⟨2, ![n, m]⟩ [(0 : Fin 2)] ⟨1, ![m]⟩)
    (hu : 0 < (⟨0, ![]⟩ : Shape).numel) (q : Fin m) :
    Host.reduceAdd x init h' hu (ix1 q) = init ix0 + ∑ k : Fin n, x (ix2 k q) := by
  have e0 : Shape.Idx.first hu = ix0 := funext fun a => a.elim0
  show Ideal.hostReduceAdd h' x (init (Shape.Idx.first hu)) (ix1 q) = _
  rw [e0]
  exact (Ideal.hostReduceAdd_single h' h x (init ix0) (ix1 q)).trans
    (congrArg (init ix0 + ·) (Finset.sum_congr rfl fun k _ => congrArg x (lift_col h q k)))

/-- Row i of block t, among a blocks of b rows each: row t·b + i of the whole. -/
def blockRow {a b : ℕ} (t : Fin a) (i : Fin b) : Fin (a * b) :=
  ⟨t.val * b + i.val, by
    have h1 := t.isLt; have h2 := i.isLt
    calc t.val * b + i.val < t.val * b + b := by omega
      _ = (t.val + 1) * b := by ring
      _ ≤ a * b := Nat.mul_le_mul_right b h1⟩

theorem blockRow_val {a b : ℕ} (t : Fin a) (i : Fin b) : (blockRow t i).val = t.val * b + i.val := rfl

/-- A sum over a·b rows is the sum over the a blocks of the sums over each block's b rows. Addition in any commutative
    monoid: nothing about finiteness. -/
theorem sum_blocks {M : Type*} [AddCommMonoid M] (a b : ℕ) (f : Fin (a * b) → M) :
    ∑ r : Fin (a * b), f r = ∑ t : Fin a, ∑ i : Fin b, f (blockRow t i) := by
  refine Eq.trans ?_ (Fintype.sum_prod_type' (fun (t : Fin a) (i : Fin b) => f (blockRow t i)))
  refine Fintype.sum_equiv finProdFinEquiv.symm _ _ fun r => congrArg f (Fin.ext ?_)
  have h1 : ((finProdFinEquiv.symm r).1 : Fin a).val = r.val / b := rfl
  have h2 : ((finProdFinEquiv.symm r).2 : Fin b).val = r.val % b := rfl
  rw [blockRow_val, h1, h2]
  exact (Nat.div_add_mod' r.val b).symm

end Idealize.ShloMosaic.ValueIdx

end
-- ==== Proof.LibRowReduce.lean ====
/-
  Reductions along the lanes of a matrix, read at one row, at the exact values.

  A kernel's `vector.multi_reduction` over axis 1 of an [n, m] vector and the host's one-operand `stablehlo.reduce` over
  axis 1 of an [n, m] tensor each give, at row r, a quantity of that row's m entries alone: their sum (an `add` body) or
  the fold of max from the initial value (a `maximum` body). Also: an [a, 1] column cast to a length-a vector reads the
  column's entry, and a one-element vector's extracted scalar is its entry.
-/
import Idealize.ShloMosaic.PureOps.Ideal.Laws
import Idealize.ShloMosaic.Lib.Pipeline.Value
import Idealize.ShloMosaic.Lib.ValueIdx

noncomputable section

namespace Idealize.ShloMosaic.ValueIdx

variable {φ : FTy}

/-- Row r's index with the lane coordinate k put back is (r, k). -/
theorem lift_row {n m : ℕ} (h : Shape.Reduces ⟨2, ![n, m]⟩ [(1 : Fin 2)] ⟨1, ![n]⟩) (r : Fin n) (k : Fin m) :
    h.lift (ix1 r) k = ix2 r k :=
  funext fun c => Fin.ext (by
    match c with
    | ⟨0, _⟩ => rfl
    | ⟨1, _⟩ => rfl)

/-- A kernel's lane sum at row r is the sum of the row's entries. -/
theorem multiReduction_add_row {n m : ℕ} (src : FVec Ideal ⟨2, ![n, m]⟩ φ) (acc : BitVec φ.bits)
    (h : Shape.Reduces ⟨2, ![n, m]⟩ [(1 : Fin 2)] ⟨1, ![n]⟩) (hφ : FKind.Formats φ) (hacc : acc = FKind.add.neutral φ hφ) (r : Fin n) :
    multiReduction .add [(1 : Fin 2)] ⟨1, ![n]⟩ src acc h hφ hacc (ix1 r) = ∑ k : Fin m, src (ix2 r k) :=
  (Ideal.multiReduction_add_single src acc h hφ hacc (ix1 r)).trans
    (Finset.sum_congr rfl fun k _ => congrArg src (lift_row h r k))

/-- A kernel's lane maximum at row r is the fold of max, from the accumulator's value, over the row's entries. -/
theorem multiReduction_max_row {n m : ℕ} (src : FVec Ideal ⟨2, ![n, m]⟩ φ) (acc : BitVec φ.bits)
    (h : Shape.Reduces ⟨2, ![n, m]⟩ [(1 : Fin 2)] ⟨1, ![n]⟩) (hφ : FKind.Formats φ) (hacc : acc = FKind.maximumf.neutral φ hφ) (r : Fin n) :
    multiReduction .maximumf [(1 : Fin 2)] ⟨1, ![n]⟩ src acc h hφ hacc (ix1 r)
      = (Finset.univ : Finset (Fin m)).fold max (Ideal.ofBits φ acc) (fun k => src (ix2 r k)) :=
  (Ideal.multiReduction_maximumf_single src acc h hφ hacc (ix1 r)).trans
    (congrArg (fun f : Fin m → EReal => (Finset.univ : Finset (Fin m)).fold max (Ideal.ofBits φ acc) f)
      (funext fun k => congrArg src (lift_row h r k)))

/-- The host's reduce with an add body over axis 1, at row r: the initial value plus the sum of the row's entries. -/
theorem hostReduceAdd_row {n m : ℕ} (x : FVec Ideal ⟨2, ![n, m]⟩ φ) (init : (⟨0, ![]⟩ : Shape).Idx → Ideal φ)
    (h' : Shape.ReducesTo ⟨2, ![n, m]⟩ [(1 : Fin 2)] ⟨1, ![n]⟩) (h : Shape.Reduces ⟨2, ![n, m]⟩ [(1 : Fin 2)] ⟨1, ![n]⟩)
    (hu : 0 < (⟨0, ![]⟩ : Shape).numel) (r : Fin n) :
    Host.reduceAdd x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_row h r k)))

/-- The host's reduce with a maximum body over axis 1, at row r: the fold of max, from the initial value, over the row's
    entries. -/
theorem hostReduce_max_row {n m : ℕ} (x : FVec Ideal ⟨2, ![n, m]⟩ φ) (init : (⟨0, ![]⟩ : Shape).Idx → Ideal φ)
    (h' : Shape.ReducesTo ⟨2, ![n, m]⟩ [(1 : Fin 2)] ⟨1, ![n]⟩) (h : Shape.Reduces ⟨2, ![n, m]⟩ [(1 : Fin 2)] ⟨1, ![n]⟩)
    (hu : 0 < (⟨0, ![]⟩ : Shape).numel) (r : Fin n) :
    Host.reduce (FloatOps.maximumf (F := Ideal) (φ := φ)) x init h' hu (ix1 r)
      = (Finset.univ : Finset (Fin m)).fold max (init ix0) (fun k => x (ix2 r k)) := by
  have e0 : Shape.Idx.first hu = ix0 := funext fun a => a.elim0
  refine (Host.reduce_eq_fold_single (FloatOps.maximumf (F := Ideal) (φ := φ)) x init h' h hu (ix1 r)).trans ?_
  rw [e0]
  exact congrArg (fun f : Fin m → EReal => (Finset.univ : Finset (Fin m)).fold max (init ix0) f)
    (funext fun k => congrArg x (lift_row h r k))

variable {α : Type}

/-- An [a, 1] column cast to a length-a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The scalar extracted at position 0 of a one-element vector is its entry. -/
theorem extractAt_one (x : (⟨1, ![1]⟩ : Shape).Idx → α) (h : ∀ a, (![0] : Fin 1 → ℕ) a < (⟨1, ![1]⟩ : Shape).size a) :
    extractAt ![0] x h = x (ix1 (0 : Fin 1)) :=
  congrArg x (funext fun a => Fin.ext (by
    match a with
    | ⟨0, _⟩ => rfl))

end Idealize.ShloMosaic.ValueIdx

end
-- ==== Proof.LibKeepdims.lean ====
/-
  Two layout readings for row statistics kept as a column (the `keepdims=True` forms): a length-a vector viewed as an
  [a, 1] column, and an [a, 1] column repeated along its unit axis to [a, b]. Both read one element of the operand.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.LibTensorSum.lean ====
/-
  Sums over the entries of small tensors, at the exact values.

  A kernel's reduction of an a × b × c vector over its last axis is, at (p, q), the sum over the c lanes of the entries
  (p, q, ·). A sum over every index of a rank-4 array is the fourfold sum over its coordinates. On the extended reals
  the distance max (x - y) (-(x - y)) does not depend on the order of its two arguments, at the infinities too.
-/
import Idealize.ShloMosaic.PureOps.Ideal.Laws
import Idealize.ShloMosaic.Lib.ValueIdx

noncomputable section

open scoped BigOperators

namespace Idealize.ShloMosaic.ValueIdx

open Idealize.ShloMosaic

variable {φ : FTy}

/-- Putting lane k back into the reduced index (p, q) of an a × b × c vector reduced over its lanes gives (p, q, k). -/
theorem lift_lane3 {a b c : ℕ} (h : Shape.Reduces ⟨3, ![a, b, c]⟩ [(2 : Fin 3)] ⟨2, ![a, b]⟩) (p : Fin a) (q : Fin b)
    (k : Fin c) : h.lift (ix2 p q) k = ix3 p q k :=
  funext fun d => Fin.ext (by
    match d with
    | ⟨0, _⟩ => rfl
    | ⟨1, _⟩ => rfl
    | ⟨2, _⟩ => rfl)

/-- A kernel's lane sum of an a × b × c vector, at (p, q), is the sum of the c entries (p, q, ·). -/
theorem multiReduction_add_lane3 {a b c : ℕ} (src : FVec Ideal ⟨3, ![a, b, c]⟩ φ) (acc : BitVec φ.bits)
    (h : Shape.Reduces ⟨3, ![a, b, c]⟩ [(2 : Fin 3)] ⟨2, ![a, b]⟩) (hφ : FKind.Formats φ)
    (hacc : acc = FKind.add.neutral φ hφ) (p : Fin a) (q : Fin b) :
    multiReduction .add [(2 : Fin 3)] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_lane3 h p q k))

/-- A rank-4 index set is the product of its four coordinate ranges … -/
def idxEquiv4 {n0 n1 n2 n3 : ℕ} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates, in any commutative monoid. -/
theorem sum_idx4 {M : Type*} [AddCommMonoid M] {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The distance of two extended reals, as the exact absolute value of their difference reads it. -/
def edist' (x y : EReal) : EReal := max (x - y) (-(x - y))

/-- It is symmetric: for x ≠ y the negated difference is the opposite difference (no two equal infinities meet), and
    for x = y there is nothing to show. -/
theorem edist'_comm (x y : EReal) : edist' x y = edist' y x := by
  unfold edist'
  rcases eq_or_ne x y with rfl | hne
  · rfl
  · have h1 : x ≠ ⊥ ∨ y ≠ ⊥ := by
      by_contra h; push Not at h; exact hne (h.1.trans h.2.symm)
    have h2 : x ≠ ⊤ ∨ y ≠ ⊤ := by
      by_contra h; push Not at h; exact hne (h.1.trans h.2.symm)
    rw [EReal.neg_sub h1 h2, EReal.neg_sub h1.symm h2.symm, max_comm, add_comm (-x) y, add_comm (-y) x,
      ← sub_eq_add_neg, ← sub_eq_add_neg]

end Idealize.ShloMosaic.ValueIdx

end
-- ==== Proof.KernelPayload.lean ====
/-
  The kernel body's arithmetic at the exact values.

  The accumulating payload of two 800 × 32 × 32 blocks x0, x1 and the 1 × 1 accumulator acc is, at its one entry,
      acc + ∑ k < 800, ∑ h < 32, ∑ w < 32, |x0[k, h, w] - x1[k, h, w]|:
  the three reductions (over lanes, then sublanes, then rows) are sums from zero over the reduced axis, the casts between
  them move no entry. The reset payload is zero.
-/
import proofs.«168996_j33758442946606_2_alg».proof.Proof.Gen.KernelIdeal.Skeleton
import proofs.«168996_j33758442946606_2_alg».proof.Proof.LibColReduce
import proofs.«168996_j33758442946606_2_alg».proof.Proof.LibRowReduce
import proofs.«168996_j33758442946606_2_alg».proof.Proof.LibKeepdims
import proofs.«168996_j33758442946606_2_alg».proof.Proof.LibTensorSum
import Idealize.ShloMosaic.Lib.Pipeline.Value

noncomputable section

open scoped BigOperators

open Idealize.ShloMosaic Idealize.ShloMosaic.ValueIdx

namespace Cert.KernelIdeal.AccValue

open Cert.KernelIdeal Cert.KernelIdeal.Gen

/-- The reset payload's one entry is zero. -/
theorem pay1_apply : k0_pay1 (F := Ideal) (ix2 (0 : Fin 1) (0 : Fin 1)) = 0 :=
  Ideal.ofBits_zero_f32

/-- The accumulating payload's one entry: the accumulator's plus the sum of the absolute differences of the blocks. -/
theorem pay2_apply (x0 x1 : Vec Ideal S800x32x32 .f32) (acc : Vec Ideal S1x1 .f32) :
    k0_pay2 (F := Ideal) x0 x1 acc (ix2 (0 : Fin 1) (0 : Fin 1))
      = acc (ix2 (0 : Fin 1) (0 : Fin 1))
        + ∑ k : Fin 800, ∑ h : Fin 32, ∑ w : Fin 32, edist' (x0 (ix3 k h w)) (x1 (ix3 k h w)) := by
  unfold k0_pay2
  dsimp only
  refine (addf_apply _ _ _).trans ?_
  refine congrArg₂ (· + ·) ?_ ?_
  · exact congrFun (shapeCast_self acc _) _
  · refine (shapeCast_a_a1_apply _ _ (0 : Fin 1) (0 : Fin 1)).trans ?_
    refine (multiReduction_add_col _ _ _ _ _ (0 : Fin 1)).trans ?_
    refine Finset.sum_congr rfl fun k _ => ?_
    refine (shapeCast_a_a1_apply _ _ k (0 : Fin 1)).trans ?_
    refine (multiReduction_add_row _ _ _ _ _ k).trans ?_
    refine Finset.sum_congr rfl fun h _ => ?_
    refine (multiReduction_add_lane3 _ _ _ _ _ k h).trans ?_
    refine Finset.sum_congr rfl fun w _ => ?_
    show edist' (shapeCast S800x32x32 x0 _ (ix3 k h w)) (shapeCast S800x32x32 x1 _ (ix3 k h w)) = _
    rw [shapeCast_self, shapeCast_self]

end Cert.KernelIdeal.AccValue

end
-- ==== Proof.ChannelRead.lean ====
/-
  Channel 3 of a [64, 100, 4, 32, 32] array, sliced out, its unit axis dropped and its two leading axes flattened to
  6400 rows, read at one entry: row n, sublane h, lane w is the array's entry (n / 100, n % 100, 3, h, w). Both casts
  keep the row-major position, and the slice shifts the third coordinate by 3.
-/
import Idealize.ShloMosaic.Lib.Pipeline.Value
import Idealize.ShloMosaic.Lib.ValueIdx

noncomputable section

namespace Cert.MeanAbsDiff

open Idealize.ShloMosaic Idealize.ShloMosaic.ValueIdx

theorem chan3_read {α : Type} (X : (⟨5, ![64, 100, 4, 32, 32]⟩ : Shape).Idx → α)
    (hs : (⟨5, ![64, 100, 4, 32, 32]⟩ : Shape).Slices ![0, 0, 3, 0, 0] ⟨5, ![64, 100, 1, 32, 32]⟩)
    (h1 : (⟨5, ![64, 100, 1, 32, 32]⟩ : Shape).ShapeCasts ⟨4, ![64, 100, 32, 32]⟩)
    (h2 : (⟨4, ![64, 100, 32, 32]⟩ : Shape).ShapeCasts ⟨3, ![6400, 32, 32]⟩)
    (n : Fin 6400) (h w : Fin 32) :
    shapeCast ⟨3, ![6400, 32, 32]⟩ (shapeCast ⟨4, ![64, 100, 32, 32]⟩
        (extractStridedSlice ⟨5, ![64, 100, 1, 32, 32]⟩ ![0, 0, 3, 0, 0] X hs) h1) h2 (ix3 n h w)
      = X (ix5 (⟨n.val / 100, by have := n.isLt; omega⟩ : Fin 64) (⟨n.val % 100, by omega⟩ : Fin 100) (3 : Fin 4) h w) := by
  have hn := n.isLt; have hh := h.isLt; have hw := w.isLt
  refine (shapeCast_apply _ h2 (ix3 n h w)
    (ix4 (⟨n.val / 100, by omega⟩ : Fin 64) (⟨n.val % 100, by omega⟩ : Fin 100) h w) ?_).trans ?_
  · rw [Shape.rowMajor_val_four, Shape.rowMajor_val_three]
    show ((n.val / 100 * 100 + n.val % 100) * 32 + h.val) * 32 + w.val = (n.val * 32 + h.val) * 32 + w.val
    omega
  refine (shapeCast_apply _ h1 _
    (ix5 (⟨n.val / 100, by omega⟩ : Fin 64) (⟨n.val % 100, by omega⟩ : Fin 100) (0 : Fin 1) h w) ?_).trans ?_
  · rw [Shape.rowMajor_val_five, Shape.rowMajor_val_four]
    show ((((n.val / 100 * 100 + n.val % 100) * 1 + 0) * 32 + h.val) * 32 + w.val
      = ((n.val / 100 * 100 + n.val % 100) * 32 + h.val) * 32 + w.val)
    omega
  refine extractStridedSlice_apply ![0, 0, 3, 0, 0] X hs _ _ fun a => ?_
  match a with
  | ⟨0, _⟩ => show n.val / 100 = 0 + n.val / 100; omega
  | ⟨1, _⟩ => show n.val % 100 = 0 + n.val % 100; omega
  | ⟨2, _⟩ => show 3 = 3 + 0; rfl
  | ⟨3, _⟩ => show h.val = 0 + h.val; omega
  | ⟨4, _⟩ => show w.val = 0 + w.val; omega

end Cert.MeanAbsDiff

end
-- ==== Proof.MeanSpec.lean ====
/-
  The specification: the mean absolute difference of channel 3 of two [64, 100, 4, 32, 32] arrays.

  With the two leading axes flattened to one row index n = 100·a + b < 6400, the result is
      (∑ n < 6400, ∑ h < 32, ∑ w < 32, |A[a, b, 3, h, w] - B[a, b, 3, h, w]|) / 6553600,
  the sum taken on the extended reals, where addition is commutative and associative with no side condition: any
  grouping of the 6,553,600 terms is the same number. Two groupings are used: eight blocks of 800 rows (the order in
  which a grid of eight points accumulates them), and the 64 × 100 leading coordinates (the order of a reduction of the
  rank-4 slice).
-/
import Idealize.ShloMosaic.PureOps.Ideal.Laws
import Idealize.ShloMosaic.Lib.ValueIdx
import proofs.«168996_j33758442946606_2_alg».proof.Proof.LibColReduce
import proofs.«168996_j33758442946606_2_alg».proof.Proof.LibTensorSum

noncomputable section

open scoped BigOperators

namespace Cert.MeanAbsDiff

open Idealize.ShloMosaic Idealize.ShloMosaic.ValueIdx

/-- The arrays' index set and contents at the exact values. -/
abbrev Arr5 : Type := (⟨5, ![64, 100, 4, 32, 32]⟩ : Shape).Idx → EReal

/-- Entry (n, h, w) of channel 3, the two leading axes flattened: n = 100·a + b. -/
def chan3 (X : Arr5) (n : Fin 6400) (h w : Fin 32) : EReal :=
  X (ix5 (⟨n.val / 100, by have := n.isLt; omega⟩ : Fin 64) (⟨n.val % 100, by omega⟩ : Fin 100) (3 : Fin 4) h w)

/-- Channel 3 at row 100·a + b is the entry (a, b, 3, h, w). -/
theorem chan3_blockRow (X : Arr5) (a : Fin 64) (b : Fin 100) (h w : Fin 32) :
    chan3 X (blockRow a b) h w = X (ix5 a b (3 : Fin 4) h w) := by
  unfold chan3
  have ha := a.isLt; have hb := b.isLt
  refine congrArg X (funext fun d => ?_)
  match d with
  | ⟨0, _⟩ => exact Fin.ext (by show (a.val * 100 + b.val) / 100 = a.val; omega)
  | ⟨1, _⟩ => exact Fin.ext (by show (a.val * 100 + b.val) % 100 = b.val; omega)
  | ⟨2, _⟩ => rfl
  | ⟨3, _⟩ => rfl
  | ⟨4, _⟩ => rfl

/-- One row's contribution: the sum of the absolute differences over its 32 × 32 entries. -/
def rowSum (A B : Arr5) (n : Fin 6400) : EReal :=
  ∑ h : Fin 32, ∑ w : Fin 32, edist' (chan3 A n h w) (chan3 B n h w)

/-- The sum over all 6400 rows. -/
def total (A B : Arr5) : EReal := ∑ n : Fin 6400, rowSum A B n

/-- The sum over the 800 rows of block t, of eight. -/
def blockSum (A B : Arr5) (t : Fin 8) : EReal := ∑ k : Fin 800, rowSum A B (blockRow t k)

/-- The total is the sum of the eight block sums. -/
theorem total_eq_blocks (A B : Arr5) : total A B = ∑ t : Fin 8, blockSum A B t :=
  sum_blocks 8 800 (rowSum A B)

/-- The total is the sum over the leading coordinates (a, b) of the rows 100·a + b. -/
theorem total_eq_leading (A B : Arr5) :
    total A B = ∑ a : Fin 64, ∑ b : Fin 100, ∑ h : Fin 32, ∑ w : Fin 32,
      edist' (A (ix5 a b (3 : Fin 4) h w)) (B (ix5 a b (3 : Fin 4) h w)) := by
  refine (sum_blocks 64 100 (rowSum A B)).trans ?_
  refine Finset.sum_congr rfl fun a _ => Finset.sum_congr rfl fun b _ => ?_
  unfold rowSum
  refine Finset.sum_congr rfl fun h _ => Finset.sum_congr rfl fun w _ => ?_
  rw [chan3_blockRow, chan3_blockRow]

/-- The block sums taken one after the other, as a running sum over the first n + 1 blocks. -/
def blockSumN (A B : Arr5) (s : ℕ) : EReal := if h : s < 8 then blockSum A B ⟨s, h⟩ else 0

/-- After all eight blocks the running sum is the total. -/
theorem running_eq_total (A B : Arr5) : ∑ s ∈ Finset.range (7 + 1), blockSumN A B s = total A B := by
  rw [total_eq_blocks, Finset.sum_range]
  refine Finset.sum_congr rfl fun t _ => ?_
  unfold blockSumN
  rw [dif_pos t.isLt]

/-- The result: the total divided by the number of entries, 6553600 as the f32 word both programs print. -/
def mean (A B : Arr5) : (⟨0, ![]⟩ : Shape).Idx → EReal :=
  fun _ => FloatOps.hostDivf (F := Ideal) (φ := .f32) (total A B) (FloatOps.ofBits (F := Ideal) .f32 0x4AC80000#32)

end Cert.MeanAbsDiff

end
-- ==== Proof.KernelBlocks.lean ====
/-
  The input blocks the kernel body sees at a grid point, read at one entry.

  Each of the two staged arrays is channel 3 of an argument, flattened to 6400 rows (the host lines before the region);
  the block at point t is rows 800·t … 800·t + 799. So entry (k, h, w) of the block is channel 3 of the argument at row
  800·t + k: `output` for the first window, `convdata` for the second.
-/
import proofs.«168996_j33758442946606_2_alg».proof.Proof.Gen.KernelIdeal.Frame
import proofs.«168996_j33758442946606_2_alg».proof.Proof.ChannelRead
import proofs.«168996_j33758442946606_2_alg».proof.Proof.MeanSpec
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.AccValue

open Cert.KernelIdeal Cert.KernelIdeal.Gen Cert.MeanAbsDiff

variable (m : (ℓ : Loc nD τ sig) → Buf (Elt Ideal) ℓ)

/-- A grid point as a number below eight. -/
def pt (t : Fin cfg0.N) : Fin 8 := ⟨t.val, lt_of_lt_of_eq t.isLt (show cfg0.N = 8 from N_0)⟩

/-- The first window's block index at point t is (t, 0, 0); -/
theorem index0 : ∀ t : Fin cfg0.N,
    win0_0.index t (0 : Fin 3) = t.val ∧ win0_0.index t (1 : Fin 3) = 0 ∧ win0_0.index t (2 : Fin 3) = 0 :=
  (by decide +kernel : ∀ t : Fin grid0.N,
    win0_0.index t (0 : Fin 3) = t.val ∧ win0_0.index t (1 : Fin 3) = 0 ∧ win0_0.index t (2 : Fin 3) = 0)
/-- and so is the second's. -/
theorem index1 : ∀ t : Fin cfg0.N,
    win0_1.index t (0 : Fin 3) = t.val ∧ win0_1.index t (1 : Fin 3) = 0 ∧ win0_1.index t (2 : Fin 3) = 0 :=
  (by decide +kernel : ∀ t : Fin grid0.N,
    win0_1.index t (0 : Fin 3) = t.val ∧ win0_1.index t (1 : Fin 3) = 0 ∧ win0_1.index t (2 : Fin 3) = 0)

/-- Entry (k, h, w) of the first window's block at point t is the staged array's entry (800·t + k, h, w). -/
theorem iblk0_apply (c : Dev nD) (t : Fin cfg0.N) (k : Fin 800) (h w : Fin 32) :
    (iblk m c 0 t : Vec Ideal S800x32x32 .f32) (ix3 k h w)
      = (V m c main_v2 : S6400x32x32.Idx → EReal) (ix3 (blockRow (pt t) k) h w) := by
  obtain ⟨i0, i1, i2⟩ := index0 t
  unfold iblk
  rw [View.read_apply]
  show V m c main_v2 _ = V m c main_v2 _
  congr 1
  funext a
  apply Fin.ext
  match a with
  | ⟨0, _⟩ => show win0_0.index t 0 * 800 + 1 * k.val = t.val * 800 + k.val; rw [i0]; omega
  | ⟨1, _⟩ => show win0_0.index t 1 * 32 + 1 * h.val = h.val; rw [i1]; omega
  | ⟨2, _⟩ => show win0_0.index t 2 * 32 + 1 * w.val = w.val; rw [i2]; omega

/-- The same for the second window. -/
theorem iblk1_apply (c : Dev nD) (t : Fin cfg0.N) (k : Fin 800) (h w : Fin 32) :
    (iblk m c 1 t : Vec Ideal S800x32x32 .f32) (ix3 k h w)
      = (V m c main_v5 : S6400x32x32.Idx → EReal) (ix3 (blockRow (pt t) k) h w) := by
  obtain ⟨i0, i1, i2⟩ := index1 t
  unfold iblk
  rw [View.read_apply]
  show V m c main_v5 _ = V m c main_v5 _
  congr 1
  funext a
  apply Fin.ext
  match a with
  | ⟨0, _⟩ => show win0_1.index t 0 * 800 + 1 * k.val = t.val * 800 + k.val; rw [i0]; omega
  | ⟨1, _⟩ => show win0_1.index t 1 * 32 + 1 * h.val = h.val; rw [i1]; omega
  | ⟨2, _⟩ => show win0_1.index t 2 * 32 + 1 * w.val = w.val; rw [i2]; omega

/-- The first staged array as the host lines before the region leave it: channel 3 of the first argument, flattened. -/
theorem V_v2 (c : Dev nD) : (V m c main_v2 : S6400x32x32.Idx → EReal)
    = shapeCast S6400x32x32 (shapeCast S64x100x32x32
        (extractStridedSlice S64x100x1x32x32 ![0, 0, 3, 0, 0] (m ((c : Thread nD τ).loc main_arg0))
          Facts₀.slices_S64x100x4x32x32_S64x100x1x32x32_0_0_3_0_0)
        Facts₀.shapeCasts_S64x100x1x32x32_S64x100x32x32) Facts₀.shapeCasts_S64x100x32x32_S6400x32x32 := by
  show StableHlo.after hostOps0 (fun b => m (c, b)) (Proc.devRef .tc main_v2) = _
  after_results
  rfl

/-- The second staged array: channel 3 of the second argument, flattened. -/
theorem V_v5 (c : Dev nD) : (V m c main_v5 : S6400x32x32.Idx → EReal)
    = shapeCast S6400x32x32 (shapeCast S64x100x32x32
        (extractStridedSlice S64x100x1x32x32 ![0, 0, 3, 0, 0] (m ((c : Thread nD τ).loc main_arg1))
          Facts₀.slices_S64x100x4x32x32_S64x100x1x32x32_0_0_3_0_0)
        Facts₀.shapeCasts_S64x100x1x32x32_S64x100x32x32) Facts₀.shapeCasts_S64x100x32x32_S6400x32x32 := by
  show StableHlo.after hostOps0 (fun b => m (c, b)) (Proc.devRef .tc main_v5) = _
  after_results
  rfl

/-- So the first window's block at point t, at (k, h, w), is channel 3 of `output` at row 800·t + k; -/
theorem block0_chan3 (c : Dev nD) (t : Fin cfg0.N) (k : Fin 800) (h w : Fin 32) :
    (iblk m c 0 t : Vec Ideal S800x32x32 .f32) (ix3 k h w)
      = chan3 (m ((c : Thread nD τ).loc main_arg0)) (blockRow (pt t) k) h w := by
  rw [iblk0_apply, V_v2]
  exact chan3_read _ _ _ _ _ h w

/-- and the second's is channel 3 of `convdata` there. -/
theorem block1_chan3 (c : Dev nD) (t : Fin cfg0.N) (k : Fin 800) (h w : Fin 32) :
    (iblk m c 1 t : Vec Ideal S800x32x32 .f32) (ix3 k h w)
      = chan3 (m ((c : Thread nD τ).loc main_arg1)) (blockRow (pt t) k) h w := by
  rw [iblk1_apply, V_v5]
  exact chan3_read _ _ _ _ _ h w

end Cert.KernelIdeal.AccValue

end
-- ==== Proof.KernelValue.lean ====
/-
  The kernel's result: the mean absolute difference of channel 3.

  The accumulator's one entry after point n is the sum of the block sums of points 0 … n (induction on the point: the
  first point starts from the zero it stores, each later point adds its block's sum to what the point before left). The
  accumulator is written back once, after the last point, and its 1 × 1 block is the whole result array; the host lines
  after the region drop the two unit axes and divide by 6553600.
-/
import proofs.«168996_j33758442946606_2_alg».proof.Proof.KernelPieces
import proofs.«168996_j33758442946606_2_alg».proof.Proof.KernelPayload
import proofs.«168996_j33758442946606_2_alg».proof.Proof.KernelBlocks
import proofs.«168996_j33758442946606_2_alg».proof.Proof.MeanSpec
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.AccValue

open Cert.KernelIdeal Cert.KernelIdeal.Gen Cert.MeanAbsDiff

variable (m : (ℓ : Loc nD τ sig) → Buf (Elt Ideal) ℓ) (ρ : Dev nD → PrngReg)

/-- The two arguments' launch contents on core c. -/
abbrev argA (c : Dev nD) : Arr5 := m ((c.tc : Thread nD τ).loc main_arg0)
abbrev argB (c : Dev nD) : Arr5 := m ((c.tc : Thread nD τ).loc main_arg1)

/-- At point t the accumulating payload adds block t's sum to the accumulator's entry. -/
theorem pay2_block (c : Dev nD) (t : Fin cfg0.N) (acc : Vec Ideal S1x1 .f32) :
    k0_pay2 (F := Ideal) (iblk m c 0 t) (iblk m c 1 t) acc (ix2 (0 : Fin 1) (0 : Fin 1))
      = acc (ix2 (0 : Fin 1) (0 : Fin 1)) + blockSum (argA m c) (argB m c) (pt t) := by
  refine (pay2_apply (iblk m c 0 t) (iblk m c 1 t) acc).trans ?_
  refine congrArg (acc (ix2 (0 : Fin 1) (0 : Fin 1)) + ·) ?_
  unfold blockSum rowSum
  refine Finset.sum_congr rfl fun k _ => Finset.sum_congr rfl fun h _ => Finset.sum_congr rfl fun w _ => ?_
  rw [block0_chan3 m c t k h w, block1_chan3 m c t k h w]

/-- The accumulator's entry after point n is the running sum of the block sums of points 0 … n. -/
theorem outsAt_eq (c : Dev nD) : ∀ (n : ℕ) (h : n < cfg0.N),
    outsAt0 m c n h (ix2 (0 : Fin 1) (0 : Fin 1)) = ∑ s ∈ Finset.range (n + 1), blockSumN (argA m c) (argB m c) s
  | 0, h => by
    refine (congrFun (outsAt_first m c ⟨0, h⟩ rfl) (ix2 (0 : Fin 1) (0 : Fin 1))).trans ?_
    rw [pay2_block, pay1_apply, zero_add, Finset.sum_range_one]
    unfold blockSumN
    rw [dif_pos (by decide : 0 < 8)]
    rfl
  | n + 1, h => by
    have hN : cfg0.N = 8 := N_0
    have hB : ¬(⟨n + 1, h⟩ : Fin cfg0.N).val % 8 = 0 := by dsimp only; omega
    refine (congrFun (outsAt_later m c ⟨n + 1, h⟩ hB) (ix2 (0 : Fin 1) (0 : Fin 1))).trans ?_
    rw [pay2_block, Finset.sum_range_succ]
    refine congrArg₂ (· + ·) (outsAt_eq c n (Nat.lt_of_succ_lt h)) ?_
    unfold blockSumN
    rw [dif_pos (by omega : n + 1 < 8)]
    rfl

/-- What the accumulator holds after the last point, as contents of the 1 × 1 result array. -/
abbrev result (c : Dev nD) : Buf (Elt Ideal) ((c : Thread nD τ).loc main_v6) :=
  outsAt0 m c 7 (by rw [show cfg0.N = 8 from N_0]; decide)

/-- Its one entry is the total. -/
theorem result_apply (c : Dev nD) : result m c (ix2 (0 : Fin 1) (0 : Fin 1)) = total (argA m c) (argB m c) :=
  (outsAt_eq m c 7 _).trans (running_eq_total _ _)

/-- The one write-back, after point 7, writes it: block (0, 0) of the 1 × 1 array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after0_2]
  have hz' : (fun a => win0_2.index t0_7 a * main_v6.ty.shape.size a) = fun _ => 0 :=
    funext fun a => by fin_cases a <;> decide
  exact (Memref.read_access_unit_zero (Elt Ideal) main_v6 hz' (fun a => by rw [congrFun hz' a]; simp) (result m c)).symm

/-- So the result array ends holding it: point 7's block covers the array. -/
theorem final_o (c : Dev nD) : (dats m 0 c).arrAt 2 cfg0.N = result m c :=
  (dats m 0 c).arrAt_eq_of_cover 2 (result m c) (flushed_eq m c) fun i =>
    ⟨t0_7, (flush0_2 t0_7).mpr rfl, by
      show i ∈ ((View.whole main_v6).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_7 0 * win0_2.size 0 ≤ (i 0 : Nat)
          ∧ (i 0 : Nat) < win0_2.index t0_7 0 * win0_2.size 0 + win0_2.xsize (grid0.coords t0_7) 0
        rw [show win0_2.index t0_7 0 * win0_2.size 0 = 0 from by decide +kernel,
          show win0_2.xsize (grid0.coords t0_7) 0 = 1 from by decide +kernel]
        omega
      | ⟨1, _⟩ =>
        show win0_2.index t0_7 1 * win0_2.size 1 ≤ (i 1 : Nat)
          ∧ (i 1 : Nat) < win0_2.index t0_7 1 * win0_2.size 1 + win0_2.xsize (grid0.coords t0_7) 1
        rw [show win0_2.index t0_7 1 * win0_2.size 1 = 0 from by decide +kernel,
          show win0_2.xsize (grid0.coords t0_7) 1 = 1 from by decide +kernel]
        omega⟩

/-- The host lines after the region leave, in the program's result, the mean. -/
theorem tail_eq (c : Dev nD) :
    Pipeline.afterTail₀ cfgs (dats m) 0 (V0 m) [hostOps1] c main_v8 = mean (argA m c) (argB m c) := by
  unfold Pipeline.afterTail₀
  show StableHlo.after hostOps1 _ (Proc.devRef .tc main_v8) = _
  after_results
  have key : Pipeline.withArrays (cfgs 0).spec c (V0 m c) (fun w => (dats m 0 c).arrAt w (cfgs 0).N)
      (Proc.tc.devRef main_v6) = result m c :=
    (Pipeline.withArrays_arr spec0 launch0.win.arr_inj c _ _ 2).trans (final_o m c)
  rw [key]
  funext i
  show FloatOps.hostDivf (F := Ideal) (φ := .f32) (shapeCast S_ (result m c) Facts₀.shapeCasts_S1x1_S_ i)
      (FloatOps.ofBits (F := Ideal) .f32 0x4AC80000#32)
    = FloatOps.hostDivf (F := Ideal) (φ := .f32) (total (argA m c) (argB m c))
      (FloatOps.ofBits (F := Ideal) .f32 0x4AC80000#32)
  refine congrArg (fun x => FloatOps.hostDivf (F := Ideal) (φ := .f32) x
    (FloatOps.ofBits (F := Ideal) .f32 0x4AC80000#32)) ?_
  refine (shapeCast_apply (result m c) Facts₀.shapeCasts_S1x1_S_ i (ix2 (0 : Fin 1) (0 : Fin 1)) ?_).trans
    (result_apply m c)
  have h0 : (S_.rowMajor i).val = 0 := Shape.rowMajorPi_zero _ _
  rw [h0]
  show ((⟨2, ![1, 1]⟩ : Shape).rowMajor (ix2 (0 : Fin 1) (0 : Fin 1))).val = 0
  rw [Shape.rowMajor_val_two]
  rfl

/-- The run, read: every weakly fair execution terminates with the program's result at the mean absolute difference
    of channel 3 of its two arguments, the arguments unchanged. -/
theorem run : θ_run defs (onTc (τ := τ) (main (F := Ideal))) ⟨m, fun _ => 0, ρ⟩ fun r => ∀ c : Dev nD,
      r.2.mem ((c.tc : Thread nD τ).loc main_v8) = mean (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.AccValue

end
-- ==== Proof.RefMean.lean ====
/-
  The reference side: the mean of |convdata[:, :, 3] - output[:, :, 3]| is the specification.

  The host program slices channel 3 of each argument, drops the unit axis, subtracts (convdata first), takes absolute
  values, sums all 64 × 100 × 32 × 32 entries from zero and divides by 6553600. Entry (a, b, h, w) of each reshaped
  slice is entry (a, b, 3, h, w) of its argument; the sum over the rank-4 index set is the fourfold sum over the
  coordinates, which is the specification's total grouped by leading coordinates; and the distance is symmetric, so
  subtracting in the other order changes nothing.
-/
import proofs.«168996_j33758442946606_2_alg».proof.Proof.Gen.ReferenceIdeal.Read
import proofs.«168996_j33758442946606_2_alg».proof.Proof.MeanSpec

noncomputable section

open scoped BigOperators

namespace Cert.ReferenceIdeal.RefValue

open Cert.ReferenceIdeal Cert.ReferenceIdeal.Read Idealize.ShloMosaic Idealize.ShloMosaic.ValueIdx Cert.MeanAbsDiff

/-- Entry (a, b, h, w) of the sliced and reshaped second argument is entry (a, b, 3, h, w) of the argument. -/
theorem idx_v1 (a : Fin 64) (b : Fin 100) (h w : Fin 32) :
    idx_main_v0 (idx_main_v1 (ix4 a b h w)) = ix5 a b (3 : Fin 4) h w := by
  have ha := a.isLt; have hb := b.isLt; have hh := h.isLt; have hw := w.isLt
  funext d
  match d with
  | ⟨0, _⟩ => exact Fin.ext (by show (((a.val * 100 + b.val) * 32 + h.val) * 32 + w.val) / 102400 = a.val; omega)
  | ⟨1, _⟩ => exact Fin.ext (by show (((a.val * 100 + b.val) * 32 + h.val) * 32 + w.val) / 1024 % 100 = b.val; omega)
  | ⟨2, _⟩ => exact Fin.ext (by show 3 + 0 = 3; rfl)
  | ⟨3, _⟩ => exact Fin.ext (by show (((a.val * 100 + b.val) * 32 + h.val) * 32 + w.val) / 32 % 32 = h.val; omega)
  | ⟨4, _⟩ => exact Fin.ext (by show (((a.val * 100 + b.val) * 32 + h.val) * 32 + w.val) % 32 = w.val; omega)

/-- The same for the first argument. -/
theorem idx_v3 (a : Fin 64) (b : Fin 100) (h w : Fin 32) :
    idx_main_v2 (idx_main_v3 (ix4 a b h w)) = ix5 a b (3 : Fin 4) h w := by
  have ha := a.isLt; have hb := b.isLt; have hh := h.isLt; have hw := w.isLt
  funext d
  match d with
  | ⟨0, _⟩ => exact Fin.ext (by show (((a.val * 100 + b.val) * 32 + h.val) * 32 + w.val) / 102400 = a.val; omega)
  | ⟨1, _⟩ => exact Fin.ext (by show (((a.val * 100 + b.val) * 32 + h.val) * 32 + w.val) / 1024 % 100 = b.val; omega)
  | ⟨2, _⟩ => exact Fin.ext (by show 3 + 0 = 3; rfl)
  | ⟨3, _⟩ => exact Fin.ext (by show (((a.val * 100 + b.val) * 32 + h.val) * 32 + w.val) / 32 % 32 = h.val; omega)
  | ⟨4, _⟩ => exact Fin.ext (by show (((a.val * 100 + b.val) * 32 + h.val) * 32 + w.val) % 32 = w.val; omega)

/-- One entry of the reference's array of absolute differences: the distance of the two arguments' channel-3 entries,
    the second argument first. -/
theorem v5_apply (x0 x1 : FVec Ideal S64x100x4x32x32 .f32) (a : Fin 64) (b : Fin 100) (h w : Fin 32) :
    val_main_v5 (F := Ideal) x0 x1 (ix4 a b h w)
      = edist' (x1 (ix5 a b (3 : Fin 4) h w)) (x0 (ix5 a b (3 : Fin 4) h w)) := by
  rw [val_main_v5_apply, val_main_v4_apply, val_main_v1_apply, val_main_v0_apply, val_main_v3_apply, val_main_v2_apply,
    idx_v1, idx_v3]
  rfl

/-- The reference's sum of all entries, from zero, is the specification's total. -/
theorem v6_apply (x0 x1 : FVec Ideal S64x100x4x32x32 .f32) (i : S_.Idx) :
    val_main_v6 (F := Ideal) x0 x1 i = total x0 x1 := by
  rw [val_main_v6_apply, val_main_cst_apply]
  show Ideal.ofBits .f32 0x00000000#32 + _ = _
  rw [Ideal.ofBits_zero_f32, zero_add, sum_idx4, total_eq_leading]
  refine Finset.sum_congr rfl fun a _ => Finset.sum_congr rfl fun b _ => Finset.sum_congr rfl fun h _ =>
    Finset.sum_congr rfl fun w _ => ?_
  rw [v5_apply, edist'_comm]

/-- The reference's result is the specification's mean of its two arguments. -/
theorem result_eq (x0 x1 : FVec Ideal S64x100x4x32x32 .f32) : val_main_v7 (F := Ideal) x0 x1 = mean x0 x1 := by
  funext i
  rw [val_main_v7_apply, v6_apply, val_main_cst_0_apply]
  rfl

end Cert.ReferenceIdeal.RefValue

end
-- ==== Proof.lean ====
/-
  The kernel and its reference compute one number: the mean of |output[:, :, 3] - convdata[:, :, 3]| over the
  64 × 100 × 32 × 32 entries of channel 3.

  The kernel flattens channel 3 of each argument to 6400 rows of 32 × 32, walks them in eight blocks of 800 rows, and at
  each block adds to a 1 × 1 accumulator (zeroed at the first block) the block's sum of absolute differences, reduced
  over lanes, then sublanes, then rows; the accumulator is written back after the last block and divided by 6553600 on
  the host. The reference subtracts in the other order, sums the whole rank-4 slice at once from zero, and divides by
  the same 6553600. On the extended reals:
    · |x - y| = |y - x| for every pair, the infinities included (the absolute value reads as max d (-d));
    · addition is commutative and associative with no side condition, so the kernel's nested, blockwise sum and the
      reference's single sum are the same total (regrouped by 8 × 800 rows and by the 64 × 100 leading coordinates);
    · the divisor is the same word on both sides and is never evaluated.
  Finiteness of the inputs is not used. The idealization rewrote nothing, so its preservation claim is trivial. The
  three termination-and-frame claims are the generated frames and the reference's generated run.
-/
import proofs.«168996_j33758442946606_2_alg».proof.Defs
import proofs.«168996_j33758442946606_2_alg».proof.Proof.Gen.Kernel
import proofs.«168996_j33758442946606_2_alg».proof.Proof.Gen.Kernel.Frame
import proofs.«168996_j33758442946606_2_alg».proof.Proof.Gen.KernelIdeal
import proofs.«168996_j33758442946606_2_alg».proof.Proof.Gen.KernelIdeal.Frame
import proofs.«168996_j33758442946606_2_alg».proof.Proof.Gen.ReferenceIdeal
import proofs.«168996_j33758442946606_2_alg».proof.Proof.Gen.ReferenceIdeal.Run
import proofs.«168996_j33758442946606_2_alg».proof.Proof.Gen.ReferenceIdeal.Read
import proofs.«168996_j33758442946606_2_alg».proof.Proof.Gen.Pre_finite_inputs
import proofs.«168996_j33758442946606_2_alg».proof.Proof.KernelValue
import proofs.«168996_j33758442946606_2_alg».proof.Proof.RefMean
import Idealize.ShloMosaic.Adequacy
import Idealize.ShloMosaic.Init

noncomputable section

namespace Cert.Proof

open Idealize.ShloMosaic Idealize.SL.Sem

/-- The kernel as printed terminates, faults nowhere and leaves its arguments as they were. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- From memories agreeing on the arguments both programs end at the mean absolute difference of channel 3. -/
theorem algebraic : Cert.algebraic_KernelIdeal_ReferenceIdeal := by
  intro m ρ m' ρ' _ hagree
  refine ⟨fun c => Cert.MeanAbsDiff.mean (Cert.KernelIdeal.AccValue.argA m c) (Cert.KernelIdeal.AccValue.argB m c),
    Cert.KernelIdeal.AccValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.result_eq, (hagree c).1,
    (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
